-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S16384x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048 : Shape := ⟨1, ![2048]⟩
abbrev S1x2048 : Shape := ⟨2, ![1, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)

variable [Facts₀]

class Facts : Prop extends Facts₀ where

variable [Facts]
-- ==== Proof.StepSpec.lean ====
/-
  One step of an independently recurrent layer, as a function of whole arrays.

  The input `x` and the previous state `h` are arrays of 16384 rows (the batch) by 2048 columns (the hidden
  units); the recurrent weight `w` has one entry per hidden unit. Every unit keeps to itself: the new state at row
  `p`, column `q` is

      max (x p q + h p q * w q) 0,

  so entry `(p, q)` of the result depends on entry `(p, q)` of `x` and of `h` and on entry `q` of `w` only. The
  definition is stated for any interpretation `F` of the floats: nothing below uses a law of the arithmetic, only
  where each operand is read.
-/
import Idealize.ShloMosaic.PureOps.Vector

noncomputable section

namespace Cert.IndStep

open Idealize.ShloMosaic

variable {F : FTy → Type} [FloatOps F]

/-- Batch by hidden units: 16384 rows, 2048 columns. -/
abbrev BH : Shape := ⟨2, ![16384, 2048]⟩

/-- The hidden units alone: 2048 entries. -/
abbrev Hd : Shape := ⟨1, ![2048]⟩

/-- The column `q` of an index `(p, q)`, as an index of a vector over the hidden units. -/
abbrev colOf (i : BH.Idx) : Hd.Idx := fun a => match a with
  | ⟨0, _⟩ => ⟨(i 1).val, (i 1).isLt⟩

/-- The new state, entry by entry: `max (x p q + h p q * w q) 0` at `i = (p, q)`. -/
def step (x h : Vec F BH .f32) (w : Vec F Hd .f32) : Vec F BH .f32 :=
  fun i => FloatOps.maximumf (FloatOps.addf (x i) (FloatOps.mulf (h i) (w (colOf i))))
    (FloatOps.ofBits .f32 0x00000000#32)

theorem step_apply (x h : Vec F BH .f32) (w : Vec F Hd .f32) (i : BH.Idx) :
    step x h w i = FloatOps.maximumf (FloatOps.addf (x i) (FloatOps.mulf (h i) (w (colOf i))))
      (FloatOps.ofBits .f32 0x00000000#32) := rfl

end Cert.IndStep

end
-- ==== Proof.BlockStep.lean ====
/-
  What the kernel leaves in one block.

  The kernel walks the batch in 32 blocks of 512 rows. At each block it loads the block's rows of the input and of
  the state, and the weight as a single row of 2048 entries; it repeats that row down the 512 rows, multiplies, adds
  and takes the maximum with zero, and stores the whole block. So at row `r`, column `q` of the block it leaves

      max (x r q + h r q * w 0 q) 0

  where `x`, `h` are the loaded blocks and `w` the loaded row. Before the blocks are walked the weight vector is
  recast as that single row, and entry `(0, q)` of the row is entry `q` of the vector.
-/
import proofs.«103341_j86517821212555_1_alg».proof.Proof.Gen.KernelIdeal.Value
import proofs.«103341_j86517821212555_1_alg».proof.Proof.StepSpec
import Idealize.ShloMosaic.Lib.Pipeline.Value
import Idealize.ShloMosaic.Lib.StableHlo.Run

noncomputable section

namespace Cert.IndStep

open Idealize.ShloMosaic Idealize.ShloMosaic.TcCoe Idealize.SL.Sem
open Cert.KernelIdeal Cert.KernelIdeal.Gen Cert.KernelIdeal.Value

variable {F : FTy → Type} [FloatOps F]
variable (m : (ℓ : Loc nD τ sig) → Buf (Elt F) ℓ)

/-- The origin of a two-axis block. -/
theorem origin2 : (![0, 0] : Fin 2 → Nat) = fun _ => 0 := funext fun a => by fin_cases a <;> rfl

/-- The input and the state are read at the block index itself. -/
theorem same_index (y : S512x2048.Idx) : ix3_0 y = y :=
  funext fun a => match a with
    | ⟨0, _⟩ => rfl
    | ⟨1, _⟩ => rfl

/-- Entry `(r, q)` of one block after the body: the maximum with zero of the input's entry plus the state's entry
    times the weight row's entry in column `q`. -/
theorem block_apply (P0 P1 : Vec F S512x2048 .f32) (P2 : Vec F S1x2048 .f32) (y : S512x2048.Idx) :
    out0_3 P0 P1 P2 y
      = FloatOps.maximumf (FloatOps.addf (P0 y) (FloatOps.mulf (P1 y) (P2 (ix3_2 y))))
          (FloatOps.ofBits .f32 0x00000000#32) := by
  unfold out0_3
  rw [canon3_eq]
  simp only [View.ld_unit_zero (S := S512x2048) origin2, View.ld_unit_zero (S := S1x2048) origin2]
  show FloatOps.maximumf (FloatOps.addf (P0 (ix3_0 y)) (FloatOps.mulf (P1 (ix3_0 y)) (P2 (ix3_2 y)))) _ = _
  rw [same_index]

/-- When the blocks are walked, the single-row array holds the weight vector recast as one row. -/
theorem weight_row (c : Dev nD) :
    (V m c main_v0 : S1x2048.Idx → Elt F .f32)
      = shapeCast S1x2048 (m ((c : Thread nD τ).loc main_arg2)) shapeCasts_S2048_S1x2048 := by
  dsimp only [V, hostOps0]
  after_results
  rfl

/-- Entry `(0, q)` of a vector recast as one row is the vector's entry `q`. -/
theorem row_apply (w : S2048.Idx → Elt F .f32) (j : S1x2048.Idx) :
    shapeCast S1x2048 w shapeCasts_S2048_S1x2048 j = w (fun a => match a with | ⟨0, _⟩ => ⟨(j 1).val, (j 1).isLt⟩) := by
  refine (shapeCast_addUnit_apply ![2048] w shapeCasts_S2048_S1x2048 j).trans ?_
  congr 1
  funext a
  match a with
  | ⟨0, _⟩ => rfl

end Cert.IndStep

end
-- ==== Proof.ArrayStep.lean ====
/-
  From the blocks to the whole array.

  Block `t` of the 32 is rows `512 t` to `512 t + 511`, all 2048 columns, of the input, of the state and of the
  result alike; the weight row is the same single row at every block. So row `r`, column `q` of block `t` is row
  `512 t + r`, column `q` of the array, and what the kernel writes back there is the step at `(512 t + r, q)`. Every
  row `p` of the array lies in exactly one block, number `p / 512`, so after the last block the result array is the
  step of the three argument arrays, entry by entry.
-/
import proofs.«103341_j86517821212555_1_alg».proof.Proof.BlockStep

set_option maxRecDepth 16384

noncomputable section

namespace Cert.IndStep

open Idealize.ShloMosaic Idealize.ShloMosaic.TcCoe Idealize.SL.Sem
open Cert.KernelIdeal Cert.KernelIdeal.Gen Cert.KernelIdeal.Value
open Idealize.ShloMosaic.Pipeline (Dat)

variable {F : FTy → Type} [FloatOps F]
variable (m : (ℓ : Loc nD τ sig) → Buf (Elt F) ℓ) (ρ : Dev nD → PrngReg)

/-- Where the result's blocks sit: at point `t` the block is number `t` down the rows and number 0 across the
    columns. -/
theorem block_places : ∀ t : Fin cfg0.N,
    win0_3.index t (0 : Fin 2) = t.val ∧ win0_3.index t (1 : Fin 2) = 0 :=
  (by decide +kernel : ∀ t : Fin grid0.N, _)

/-- Each of the 32 row blocks is some point's. -/
theorem block_of_row : ∀ q : Fin 32, ∃ t : Fin cfg0.N, t.val = q.val :=
  (by decide +kernel : ∀ q : Fin 32, ∃ t : Fin grid0.N, t.val = q.val)

/-- What point `t` writes back is block `t` of the step of the three argument arrays. -/
theorem flushed_is_step (c : Dev nD) (t : Fin cfg0.N) :
    (dats m 0 c).flushed 3 t = ((cfg0.win 3).blk t).view.read (Elt F)
      (step (m ((c : Thread nD τ).loc main_arg0)) (m ((c : Thread nD τ).loc main_arg1)) (m ((c : Thread nD τ).loc main_arg2))) := by
  rw [flushed3]
  funext j
  show out0_3 (iblk m c 0 t) (iblk m c 1 t) (iblk m c 2 t) j
    = step (m ((c : Thread nD τ).loc main_arg0)) (m ((c : Thread nD τ).loc main_arg1)) (m ((c : Thread nD τ).loc main_arg2))
        (((cfg0.win 3).blk t).view.emb j)
  refine (block_apply _ _ _ j).trans ?_
  rw [step_apply]
  -- the input's block sits where the result's does (the two maps from points to blocks are one function), so
  -- read at `j` it is the input array at the result block's place
  have hx : iblk m c 0 t j = m ((c : Thread nD τ).loc main_arg0) (((cfg0.win 3).blk t).view.emb j) := by
    show V m c main_arg0 (((cfg0.win 0).blk t).view.emb j) = _
    rw [V_main_arg0]
    congr 1
  -- and so is the state's
  have hh : iblk m c 1 t j = m ((c : Thread nD τ).loc main_arg1) (((cfg0.win 3).blk t).view.emb j) := by
    show V m c main_arg1 (((cfg0.win 1).blk t).view.emb j) = _
    rw [V_main_arg1]
    congr 1
  -- the weight row, read in column `q`, is the weight vector's entry `q`, and the block spans all the columns
  have hw : iblk m c 2 t (ix3_2 j) = m ((c : Thread nD τ).loc main_arg2) (colOf (((cfg0.win 3).blk t).view.emb j)) := by
    show V m c main_v0 (((cfg0.win 2).blk t).view.emb (ix3_2 j)) = _
    rw [weight_row, row_apply]
    congr 1
  rw [hx, hh, hw]

/-- An index of the array is in point `t`'s block iff each coordinate is in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- Every entry of the array is written back by some point: row `p` by point `p / 512`. -/
theorem rows_covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := block_of_row ⟨(i 0).val / 512, by omega⟩
  have ht' : t.val = (i 0).val / 512 := ht
  obtain ⟨o0, o1⟩ := block_places t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- After the last block the result array is the step of the three argument arrays. -/
theorem final_is_step (c : Dev nD) :
    (dats m 0 c).arrAt 3 cfg0.N
      = step (m ((c : Thread nD τ).loc main_arg0)) (m ((c : Thread nD τ).loc main_arg1)) (m ((c : Thread nD τ).loc main_arg2)) :=
  (dats m 0 c).arrAt_eq_of_cover 3 _ (fun t _ => flushed_is_step m c t) rows_covered

/-- The kernel's run: it terminates with the result array at the step of its arguments, and the arguments as they
    were. -/
theorem kernel_run : θ_run defs (onTc (τ := τ) (main (F := F))) ⟨m, fun _ => 0, ρ⟩ fun r => ∀ c : Dev nD,
      r.2.mem ((c : Thread nD τ).loc main_v1)
        = step (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_is_step m c), (h c).2⟩) (run_blocks m ρ)

end Cert.IndStep

end
-- ==== Proof.RefStep.lean ====
/-
  The reference computes the step of `StepSpec`.

  The reference lays the weight out twice before it multiplies: the vector over the hidden units becomes a single
  row, and the row is repeated down the 16384 rows of the batch. Read at `(p, q)`, the repeated array is the weight's
  entry `q` whatever `p` is. The product with the state, the sum with the input and the maximum with an array of
  zeros are all taken entry by entry, so the reference's result at `(p, q)` is `max (x p q + h p q * w q) 0`.
-/
import proofs.«103341_j86517821212555_1_alg».proof.Proof.Gen.ReferenceIdeal.Read
import proofs.«103341_j86517821212555_1_alg».proof.Proof.StepSpec

noncomputable section

namespace Cert.IndStep

open Idealize.ShloMosaic Cert.ReferenceIdeal Cert.ReferenceIdeal.Gen Cert.ReferenceIdeal.Read

variable {F : FTy → Type} [FloatOps F]

/-- Reading the repeated row at `(p, q)` and then the single row at `(0, q)` lands on entry `q` of the weight. -/
theorem weight_index (i : BH.Idx) : idx_main_v0 (idx_main_v1 i) = colOf i :=
  funext fun a => match a with
    | ⟨0, _⟩ => rfl

/-- The reference's last stage, as a function of its three arguments, is the step. -/
theorem reference_is_step (x h : Vec F BH .f32) (w : Vec F Hd .f32) :
    val_main_v4 (F := F) x h w = step x h w := by
  funext i
  rw [val_main_v4_apply, val_main_v3_apply, val_main_v2_apply, val_main_v1_apply, val_main_v0_apply,
    val_main_call0_v0_apply, val_main_call0_cst_apply, weight_index, step_apply]

end Cert.IndStep

end
-- ==== Proof.lean ====
/-
  The kernel and its reference compute one step of an independently recurrent layer,

      h' = max (x + h * w) 0,

  on an input `x` and a state `h` of 16384 rows by 2048 columns and a weight `w` with one entry per column: at row
  `p`, column `q` the new state is `max (x p q + h p q * w q) 0` (`Proof/StepSpec.lean`).

  The reference repeats the weight down the rows and then works entry by entry on whole arrays
  (`Proof/RefStep.lean`). The kernel recasts the weight as a single row, walks the rows in 32 blocks of 512, and at
  each block repeats the row over the block, multiplies, adds, takes the maximum with zero and writes the block back
  (`Proof/BlockStep.lean`); the 32 blocks tile the array, so the array it ends with is the same function of the
  arguments (`Proof/ArrayStep.lean`). Both sides apply the same three operations, in the same order, to the same
  three entries, so they agree for every interpretation of the floats and in particular on the extended reals; no law
  of arithmetic and no finiteness of the inputs is used. Kernel and idealized kernel are the same text (the
  idealization rewrote nothing), so there is nothing to preserve.
-/
import proofs.«103341_j86517821212555_1_alg».proof.Defs
import proofs.«103341_j86517821212555_1_alg».proof.Proof.Gen.Kernel
import proofs.«103341_j86517821212555_1_alg».proof.Proof.Gen.Kernel.Skeleton
import proofs.«103341_j86517821212555_1_alg».proof.Proof.Gen.Kernel.Launch
import proofs.«103341_j86517821212555_1_alg».proof.Proof.Gen.Kernel.Points
import proofs.«103341_j86517821212555_1_alg».proof.Proof.Gen.Kernel.Frame
import proofs.«103341_j86517821212555_1_alg».proof.Proof.Gen.KernelIdeal
import proofs.«103341_j86517821212555_1_alg».proof.Proof.Gen.KernelIdeal.Skeleton
import proofs.«103341_j86517821212555_1_alg».proof.Proof.Gen.KernelIdeal.Launch
import proofs.«103341_j86517821212555_1_alg».proof.Proof.Gen.KernelIdeal.Points
import proofs.«103341_j86517821212555_1_alg».proof.Proof.Gen.KernelIdeal.Frame
import proofs.«103341_j86517821212555_1_alg».proof.Proof.Gen.ReferenceIdeal
import proofs.«103341_j86517821212555_1_alg».proof.Proof.Gen.Pre_finite_inputs
import proofs.«103341_j86517821212555_1_alg».proof.Proof.Gen.KernelIdeal.Value
import proofs.«103341_j86517821212555_1_alg».proof.Proof.Gen.ReferenceIdeal.Run
import proofs.«103341_j86517821212555_1_alg».proof.Proof.Gen.ReferenceIdeal.Read
import proofs.«103341_j86517821212555_1_alg».proof.Proof.ArrayStep
import proofs.«103341_j86517821212555_1_alg».proof.Proof.RefStep
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is a straight line of array operations: it runs to the end, and its arguments are never written. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are both the step of the arguments. -/
theorem algebraic : Cert.algebraic_KernelIdeal_ReferenceIdeal := by
  intro m ρ m' ρ' _ hagree
  refine ⟨_, Cert.IndStep.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.IndStep.reference_is_step,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
